-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x8192 : Shape := ⟨2, ![3, 8192]⟩
abbrev S_ : Shape := ⟨0, ![]⟩

class Facts : Prop where
  bcast_S_S3x8192 : S_.BroadcastsInDim S3x8192 (![] : Fin 0 → Fin S3x8192.rank)
  reducesTo_S3x8192_S_d0_1 : S3x8192.ReducesTo [0, 1] S_
  h_S_ : 0 < S_.numel

variable [Facts]

def fn {F : FTy → Type} [FloatOps F] (main_arg0 : FVec F S3x8192 .f32) (main_arg1 : FVec F S3x8192 .f32) : IVec S_ 1 :=
  let main_v0 : FVec F S3x8192 .f32 := Host.absf main_arg0
  let main_cst : FVec F S_ .f32 := constant S_ .f32 0x7F800000#32
  let main_v1 : FVec F S3x8192 .f32 := broadcastInDim S3x8192 ![] bcast_S_S3x8192 main_cst
  let main_v2 : IVec S3x8192 1 := cmpf .olt main_v0 main_v1
  let main_c : IVec S_ 1 := constantI S_ 1 1#1
  let main_v3 : IVec S_ 1 := (fun x v => Host.reduce IntOp.andi x v reducesTo_S3x8192_S_d0_1 h_S_) main_v2 main_c
  let main_v4 : FVec F S3x8192 .f32 := Host.absf main_arg1
  let main_cst_0 : FVec F S_ .f32 := constant S_ .f32 0x7F800000#32
  let main_v5 : FVec F S3x8192 .f32 := broadcastInDim S3x8192 ![] bcast_S_S3x8192 main_cst_0
  let main_v6 : IVec S3x8192 1 := cmpf .olt main_v4 main_v5
  let main_c_1 : IVec S_ 1 := constantI S_ 1 1#1
  let main_v7 : IVec S_ 1 := (fun x v => Host.reduce IntOp.andi x v reducesTo_S3x8192_S_d0_1 h_S_) main_v6 main_c_1
  let main_v8 : IVec S_ 1 := andi main_v3 main_v7
  main_v8
-- ==== Kernel.lean ====
abbrev S3x8192 : Shape := ⟨2, ![3, 8192]⟩
abbrev S8192x3 : Shape := ⟨2, ![8192, 3]⟩
abbrev S1x8192 : Shape := ⟨2, ![1, 8192]⟩
abbrev S3x256 : Shape := ⟨2, ![3, 256]⟩
abbrev S1x256 : Shape := ⟨2, ![1, 256]⟩
abbrev S256 : Shape := ⟨1, ![256]⟩
abbrev S8192 : Shape := ⟨1, ![8192]⟩
abbrev S256x8192 : Shape := ⟨2, ![256, 8192]⟩
abbrev S256x1 : Shape := ⟨2, ![256, 1]⟩
abbrev S256x3 : Shape := ⟨2, ![256, 3]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S3x8192, .f32⟩
  | .hbm, ⟨1, _⟩ => ⟨S3x8192, .f32⟩
  | .hbm, ⟨2, _⟩ => ⟨S8192x3, .f32⟩
  | .hbm, ⟨3, _⟩ => ⟨S3x8192, .f32⟩
  | .hbm, ⟨4, _⟩ => ⟨S1x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S3x256, .f32⟩
  | .local _ .vmem, ⟨1, _⟩ => ⟨S3x256, .f32⟩
  | .local _ .vmem, ⟨2, _⟩ => ⟨S3x8192, .f32⟩
  | .local _ .vmem, ⟨3, _⟩ => ⟨S8192x3, .f32⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | _, _ => ⟨S3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S3x8192_S8192x3_1_0 : S3x8192.Transposes [1, 0] S8192x3
  inb_S3x256_S3x256_0_0 : ∀ a, (![0, 0] : Fin 2 → Nat) a + S3x256.size a ≤ S3x256.size a
  h_S3x256 : 0 < S3x256.numel
  inb_S3x8192_S3x8192_0_0 : ∀ a, (![0, 0] : Fin 2 → Nat) a + S3x8192.size a ≤ S3x8192.size a
  h_S3x8192 : 0 < S3x8192.numel
  inb_S8192x3_S8192x3_0_0 : ∀ a, (![0, 0] : Fin 2 → Nat) a + S8192x3.size a ≤ S8192x3.size a
  h_S8192x3 : 0 < S8192x3.numel
  shapeCasts_S8192x3_S8192x3 : S8192x3.ShapeCasts S8192x3
  reduces_S3x256_S256 : S3x256.Reduces [0] S256
  shapeCasts_S256_S1x256 : S256.ShapeCasts S1x256
  reduces_S3x8192_S8192 : S3x8192.Reduces [0] S8192
  shapeCasts_S8192_S1x8192 : S8192.ShapeCasts S1x8192
  transposes_S1x256_p1_0_S256x1 : S1x256.Transposes [1, 0] S256x1
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  broadcasts_S256x1_S256x3 : S256x1.Broadcasts S256x3
  transposes_S256x3_p1_0_S3x256 : S256x3.Transposes [1, 0] S3x256
  inb_S1x256_S1x256_0_0 : ∀ a, (![0, 0] : Fin 2 → Nat) a + S1x256.size a ≤ S1x256.size a
  h_S1x256 : 0 < S1x256.numel
  reducesTo_S1x8192_S_d0_1 : S1x8192.ReducesTo [0, 1] S_
  h_S_ : 0 < S_.numel
  dot_S3x256_S3x8192_S256x8192_0_0_1_1_n_n_wf : DotDims.WF S3x256 S3x8192 S256x8192 [0] [0] [1] [1] [] []
  dot_S256x8192_S8192x3_S256x3_1_0_0_1_n_n_wf : DotDims.WF S256x8192 S8192x3 S256x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x256.size a ≤ S3x8192.size a
  hwx0_0 : ∀ i : grid0.Coords, EltTy.bits .f32 = 32 ∨ (Rect.block (s := S3x8192) S3x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8192.size a ≤ S3x8192.size a
  hwx0_1 : ∀ i : grid0.Coords, EltTy.bits .f32 = 32 ∨ (Rect.block (s := S3x8192) S3x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x3.size a ≤ S8192x3.size a
  hwx0_2 : ∀ i : grid0.Coords, EltTy.bits .f32 = 32 ∨ (Rect.block (s := S8192x3) S8192x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x256.size a ≤ S3x8192.size a
  hwx0_3 : ∀ i : grid0.Coords, EltTy.bits .f32 = 32 ∨ (Rect.block (s := S3x8192) S3x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x8192.size a
  hwx0_4 : ∀ i : grid0.Coords, EltTy.bits .f32 = 32 ∨ (Rect.block (s := S1x8192) S1x256.size (cc0_transform_4 i) (hinb0_4 i)).WholeWords (EltTy.packing .f32)

variable [Facts₀]

def dot_S3x256_S3x8192_S256x8192_0_0_1_1_n_n : DotDims S3x256 S3x8192 S256x8192 where
  lhsContracting := [0]
  rhsContracting := [0]
  lhsNonContracting := [1]
  rhsNonContracting := [1]
  lhsBatch := []
  rhsBatch := []
  wf := dot_S3x256_S3x8192_S256x8192_0_0_1_1_n_n_wf
def dot_S256x8192_S8192x3_S256x3_1_0_0_1_n_n : DotDims S256x8192 S8192x3 S256x3 where
  lhsContracting := [1]
  rhsContracting := [0]
  lhsNonContracting := [0]
  rhsNonContracting := [1]
  lhsBatch := []
  rhsBatch := []
  wf := dot_S256x8192_S8192x3_S256x3_1_0_0_1_n_n_wf

abbrev win0_0 : Pipeline.Window sig grid0 :=
  Pipeline.Window.ofSpec (Memref.whole main_arg0) S3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S3x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S3x8192 : Shape := ⟨2, ![3, 8192]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 55
  | .vmem => 0
  | .smem => 0
  | _ => 0

abbrev bufTy : (tb : Table) → Fin (tcTables nBuf tb) → BufTy
  | .hbm, ⟨0, _⟩ => ⟨S3x8192, .f32⟩
  | .hbm, ⟨1, _⟩ => ⟨S3x8192, .f32⟩
  | .hbm, ⟨2, _⟩ => ⟨S3x8192, .f32⟩
  | .hbm, ⟨3, _⟩ => ⟨S_, .f32⟩
  | .hbm, ⟨4, _⟩ => ⟨S8192, .f32⟩
  | .hbm, ⟨5, _⟩ => ⟨S3x8192, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S3x8192, .f32⟩
  | .hbm, ⟨43, _⟩ => ⟨S3x8192, .f32⟩
  | .hbm, ⟨44, _⟩ => ⟨S_, .f32⟩
  | .hbm, ⟨45, _⟩ => ⟨S3x8192, .f32⟩
  | .hbm, ⟨46, _⟩ => ⟨S3x8192, .f32⟩
  | .hbm, ⟨47, _⟩ => ⟨S3x8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  reducesTo_S3x8192_S8192_d0 : S3x8192.ReducesTo [0] S8192
  h_S_ : 0 < S_.numel
  bcast_S8192_S8192x1_0 : S8192.BroadcastsInDim S8192x1 (![0] : Fin 1 → Fin S8192x1.rank)
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  bcast_S_S3x8192 : S_.BroadcastsInDim S3x8192 (![] : Fin 0 → Fin S3x8192.rank)
  reducesTo_S8192_S_d0 : S8192.ReducesTo [0] S_
  dot_S3x8192_S3x8192_S8192x8192_0_0_1_1_n_n_wf : DotDims.WF S3x8192 S3x8192 S8192x8192 [0] [0] [1] [1] [] []
  dot_S3x8192_S8192x8192_S3x8192_1_1_0_0_n_n_wf : DotDims.WF S3x8192 S8192x8192 S3x8192 [1] [1] [0] [0] [] []

variable [Facts₀]

def dot_S3x8192_S3x8192_S8192x8192_0_0_1_1_n_n : DotDims S3x8192 S3x8192 S8192x8192 where
  lhsContracting := [0]
  rhsContracting := [0]
  lhsNonContracting := [1]
  rhsNonContracting := [1]
  lhsBatch := []
  rhsBatch := []
  wf := dot_S3x8192_S3x8192_S8192x8192_0_0_1_1_n_n_wf
def dot_S3x8192_S8192x8192_S3x8192_1_1_0_0_n_n : DotDims S3x8192 S8192x8192 S3x8192 where
  lhsContracting := [1]
  rhsContracting := [1]
  lhsNonContracting := [0]
  rhsNonContracting := [0]
  lhsBatch := []
  rhsBatch := []
  wf := dot_S3x8192_S8192x8192_S3x8192_1_1_0_0_n_n_wf

class Facts : Prop extends Facts₀ where

variable [Facts]
-- ==== Proof.FiniteInputs.lean ====
/-
  The precondition `finite_inputs` read back at the extended reals. The printed function computes
  jnp.all(|a| < +∞) ∧ jnp.all(|b| < +∞): two reductions by `and` over every index of the [3, 8192] arrays of the
  comparison max x (-x) < ⊤, joined by one `and`. When the result is 1, every comparison is 1, and an extended
  real x with max x (-x) < ⊤ is neither ⊤ (max ⊤ (-⊤) = ⊤) nor ⊥ (max ⊥ (-⊥) = ⊤): it is a real number.
-/
import proofs.«132407_j1563368096435_2_alg».proof.Pre_finite_inputs
import proofs.«132407_j1563368096435_2_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The scalar shape has one index. -/
instance subsingleton_S_ : Subsingleton S_.Idx := ⟨fun a b => funext fun d => d.elim0⟩

/-- The f32 pattern 0x7F800000 (sign 0, exponent all ones, significand 0) denotes +∞. -/
theorem inf_bits : Ideal.ofBits .f32 0x7F800000#32 = (⊤ : EReal) := by
  simp [Ideal.ofBits, Ideal.ieee]

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element of the comparison |x| < +∞ being 1 says x is a real number. -/
theorem real_of_cmp (x : Ideal .f32)
    (h : FloatOps.cmpf (F := Ideal) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [inf_bits] at h'
  unfold Ideal.cmp at h'
  by_cases hlt : max x (-x) < (⊤ : EReal)
  · exact real_of_abs_lt_top x hlt
  · simp [hlt] at h'

theorem real_of_pre (a b : FVec Ideal Cert.Pre_finite_inputs.S3x8192 .f32)
    (h : Cert.Pre_finite_inputs.fn (F := Ideal) a b = fun _ => 1#1) :
    (∀ i, ∃ r : ℝ, a i = (r : EReal)) ∧ (∀ i, ∃ r : ℝ, b i = (r : EReal)) := by
  have e := congrFun h ValueIdx.ix0
  dsimp only [Cert.Pre_finite_inputs.fn, andi] at e
  obtain ⟨ea, eb⟩ := IntOp.andi_eq_one.1 e
  exact ⟨fun i => real_of_cmp (a i) (Host.reduce_andi_all _ _ _ _ _ ea i),
         fun i => real_of_cmp (b i) (Host.reduce_andi_all _ _ _ _ _ eb i)⟩

end Cert.Finite

end
-- ==== Proof.Spec.lean ====
/-
  The softly weighted nearest point, as mathematics on the extended reals.

  A query point x (three coordinates) is compared with every target point Y(·, m), m ranging over a finite index
  set. The squared distance is expanded as |x|² + |Y m|² − 2 x·Y m, floored at a small positive constant, inverted and
  doubled: the logit of m. The logits are turned into weights by subtracting their largest and exponentiating; the
  soft nearest point is the weighted mean of the targets, Σ_m w_m Y(·, m) / Σ_m w_m, and the offset of x is the
  Euclidean length of x − nearest + a small shift.

  Two spellings of this are compared. One adds the two squared norms before subtracting the doubled inner product and
  divides the weighted sum of targets by the total weight once; the other subtracts first, and divides every weight by
  the total before summing. Grouping a sum differently is harmless on the extended reals. Moving the division inside the
  sum is the distributive law, which fails at the infinities: it is proved for real targets and real positive weights,
  where every quantity is the image of a real number and the law is the one of the real numbers.
-/
import Mathlib.Data.EReal.Basic
import Mathlib.Data.EReal.Operations
import Mathlib.Algebra.BigOperators.Ring.Finset
import Mathlib.Algebra.Order.BigOperators.Group.Finset
import Mathlib.Data.Finset.Fold
import Mathlib.Tactic.Ring
import Mathlib.Tactic.Positivity
import Idealize.ShloMosaic.PureOps.Ideal
import Idealize.ShloMosaic.PureOps.Ideal.Laws

noncomputable section

open scoped BigOperators

namespace Cert.SoftNN

open Idealize.ShloMosaic

/-! ## Extended reals that are real numbers -/

/-- An extended real that is the image of a real number. -/
def IsNum (z : EReal) : Prop := ∃ r : ℝ, z = (r : EReal)

theorem IsNum.of_ne {z : EReal} (hb : z ≠ ⊥) (ht : z ≠ ⊤) : IsNum z := ⟨z.toReal, (EReal.coe_toReal ht hb).symm⟩
theorem IsNum.ne_bot {z : EReal} (h : IsNum z) : z ≠ ⊥ := by obtain ⟨r, rfl⟩ := h; exact EReal.coe_ne_bot r
theorem IsNum.ne_top {z : EReal} (h : IsNum z) : z ≠ ⊤ := by obtain ⟨r, rfl⟩ := h; exact EReal.coe_ne_top r
theorem IsNum.add {a b : EReal} (ha : IsNum a) (hb : IsNum b) : IsNum (a + b) := by
  obtain ⟨r, rfl⟩ := ha; obtain ⟨s, rfl⟩ := hb; exact ⟨r + s, (EReal.coe_add r s).symm⟩
theorem IsNum.sub {a b : EReal} (ha : IsNum a) (hb : IsNum b) : IsNum (a - b) := by
  obtain ⟨r, rfl⟩ := ha; obtain ⟨s, rfl⟩ := hb; exact ⟨r - s, (EReal.coe_sub r s).symm⟩
theorem IsNum.mul {a b : EReal} (ha : IsNum a) (hb : IsNum b) : IsNum (a * b) := by
  obtain ⟨r, rfl⟩ := ha; obtain ⟨s, rfl⟩ := hb; exact ⟨r * s, (EReal.coe_mul r s).symm⟩
theorem IsNum.sup {a b : EReal} (ha : IsNum a) (hb : IsNum b) : IsNum (max a b) := by
  rcases max_choice a b with h | h <;> rw [h] <;> assumption
theorem IsNum.sum {ι : Type} (s : Finset ι) (f : ι → EReal) (h : ∀ i ∈ s, IsNum (f i)) : IsNum (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many real numbers, at least one, taken from −∞, is a real number. -/
theorem IsNum.foldmax {ι : Type} [Fintype ι] [Nonempty ι] (f : ι → EReal) (hf : ∀ m, IsNum (f m)) :
    IsNum (Finset.univ.fold max ⊥ f) := by
  refine IsNum.of_ne ?_ ?_
  · obtain ⟨m0⟩ := ‹Nonempty ι›
    have h : f m0 ≤ Finset.univ.fold max ⊥ f := (Finset.le_fold_max (f m0)).2 (Or.inr ⟨m0, Finset.mem_univ _, le_rfl⟩)
    exact ne_of_gt (lt_of_lt_of_le (bot_lt_iff_ne_bot.2 (hf m0).ne_bot) h)
  · exact ne_of_lt ((Finset.fold_max_lt ⊤).2 ⟨bot_lt_top, fun m _ => lt_top_iff_ne_top.2 (hf m).ne_top⟩)

/-! ## The constants, as the patterns the programs carry -/

/-- 2. -/
def two : EReal := Ideal.ofBits .f32 0x40000000#32
/-- 1. -/
def one : EReal := Ideal.ofBits .f32 0x3F800000#32
/-- The floor of the squared distances, the single-precision number nearest 10⁻⁵. -/
def floor_ : EReal := Ideal.ofBits .f32 0x3727C5AC#32
/-- The shift added to the residual, the single-precision number nearest 10⁻⁶. -/
def shift : EReal := Ideal.ofBits .f32 0x358637BD#32
/-- −∞, the value a running maximum starts from. -/
def ninf : EReal := Ideal.ofBits .f32 0xFF800000#32

theorem ninf_eq : ninf = ⊥ := by simp [ninf, Ideal.ofBits, Ideal.ieee]
theorem two_num : IsNum two := ⟨8388608 * ((2 : ℝ) ^ 22)⁻¹, by simp [two, Ideal.ofBits, Ideal.ieee]⟩
theorem one_num : IsNum one := ⟨8388608 * ((2 : ℝ) ^ 23)⁻¹, by simp [one, Ideal.ofBits, Ideal.ieee]⟩
theorem floor_pos : ∃ r : ℝ, 0 < r ∧ floor_ = (r : EReal) :=
  ⟨10995116 * ((2 : ℝ) ^ 40)⁻¹, by positivity, by simp [floor_, Ideal.ofBits, Ideal.ieee]⟩

/-! ## The two spellings -/

variable {ι : Type} [Fintype ι]

/-- |x|². -/
def sqn (x : Fin 3 → EReal) : EReal := ∑ d, x d * x d
/-- x · y. -/
def dotp (x y : Fin 3 → EReal) : EReal := ∑ d, x d * y d

/-- The expanded squared distance from x to target m, norms added first. -/
def gap (x : Fin 3 → EReal) (Y : Fin 3 → ι → EReal) (m : ι) : EReal :=
  sqn x + sqn (fun d => Y d m) - two * dotp x (fun d => Y d m)
/-- The same, the doubled inner product subtracted first. -/
def gapR (x : Fin 3 → EReal) (Y : Fin 3 → ι → EReal) (m : ι) : EReal :=
  sqn x - two * dotp x (fun d => Y d m) + sqn (fun d => Y d m)

theorem gapR_eq (x : Fin 3 → EReal) (Y : Fin 3 → ι → EReal) (m : ι) : gapR x Y m = gap x Y m := by
  unfold gapR gap
  rw [sub_eq_add_neg, sub_eq_add_neg, add_right_comm]

/-- The logit of target m: twice the reciprocal of the floored squared distance. -/
def logit (x : Fin 3 → EReal) (Y : Fin 3 → ι → EReal) (m : ι) : EReal :=
  two * Ideal.div one (max (gap x Y m) floor_)
def logitR (x : Fin 3 → EReal) (Y : Fin 3 → ι → EReal) (m : ι) : EReal :=
  two * Ideal.div one (max floor_ (gapR x Y m))

theorem logitR_eq (x : Fin 3 → EReal) (Y : Fin 3 → ι → EReal) : logitR x Y = logit x Y := by
  funext m
  unfold logitR logit
  rw [gapR_eq, max_comm]

/-- The largest logit. -/
def top (x : Fin 3 → EReal) (Y : Fin 3 → ι → EReal) : EReal := Finset.univ.fold max ninf (logit x Y)
/-- The largest logit, compared once more with −∞. -/
def topR (x : Fin 3 → EReal) (Y : Fin 3 → ι → EReal) : EReal := max ninf (Finset.univ.fold max ninf (logitR x Y))

theorem topR_eq (x : Fin 3 → EReal) (Y : Fin 3 → ι → EReal) : topR x Y = top x Y := by
  unfold topR top
  rw [logitR_eq, ninf_eq, max_bot_left]

/-- The weight of target m. -/
def wt (x : Fin 3 → EReal) (Y : Fin 3 → ι → EReal) (m : ι) : EReal := Ideal.exp (logit x Y m - top x Y)
def wtR (x : Fin 3 → EReal) (Y : Fin 3 → ι → EReal) (m : ι) : EReal := Ideal.exp (logitR x Y m - topR x Y)

theorem wtR_eq (x : Fin 3 → EReal) (Y : Fin 3 → ι → EReal) : wtR x Y = wt x Y := by
  funext m
  unfold wtR wt
  rw [logitR_eq, topR_eq]

/-- The total weight. -/
def den (x : Fin 3 → EReal) (Y : Fin 3 → ι → EReal) : EReal := ∑ m, wt x Y m

/-- The soft nearest point: the weighted sum of the targets, divided once by the total weight. -/
def near (x : Fin 3 → EReal) (Y : Fin 3 → ι → EReal) (d : Fin 3) : EReal :=
  Ideal.div (∑ m, wt x Y m * Y d m) (den x Y)
/-- The soft nearest point, every weight divided by the total before the sum. -/
def nearR (x : Fin 3 → EReal) (Y : Fin 3 → ι → EReal) (d : Fin 3) : EReal :=
  ∑ m, Y d m * Ideal.div (wtR x Y m) (∑ m', wtR x Y m')

/-- The offset of x: the length of x − nearest + shift. -/
def off (x : Fin 3 → EReal) (Y : Fin 3 → ι → EReal) : EReal :=
  Ideal.sqrt (∑ d, (x d - near x Y d + shift) * (x d - near x Y d + shift))
def offR (x : Fin 3 → EReal) (Y : Fin 3 → ι → EReal) : EReal :=
  Ideal.sqrt (∑ d, (x d - nearR x Y d + shift) * (x d - nearR x Y d + shift))

/-- The number of query points, as the pattern the programs divide by. -/
def count : EReal := Ideal.ofBits .f32 0x46000000#32

/-- The mean offset of the query points X(·, n), n over a finite index set. -/
def meanOff {κ : Type} [Fintype κ] (X : Fin 3 → κ → EReal) (Y : Fin 3 → ι → EReal) : EReal :=
  Ideal.div (∑ n, off (fun d => X d n) Y) count
def meanOffR {κ : Type} [Fintype κ] (X : Fin 3 → κ → EReal) (Y : Fin 3 → ι → EReal) : EReal :=
  Ideal.div (∑ n, offR (fun d => X d n) Y) count

/-! ## Real inputs: every weight is a positive real number -/

section Real
variable [Nonempty ι]

theorem sqn_num {x : Fin 3 → EReal} (hx : ∀ d, IsNum (x d)) : IsNum (sqn x) :=
  IsNum.sum _ _ fun d _ => (hx d).mul (hx d)
theorem dotp_num {x y : Fin 3 → EReal} (hx : ∀ d, IsNum (x d)) (hy : ∀ d, IsNum (y d)) : IsNum (dotp x y) :=
  IsNum.sum _ _ fun d _ => (hx d).mul (hy d)

theorem logit_num {x : Fin 3 → EReal} {Y : Fin 3 → ι → EReal} (hx : ∀ d, IsNum (x d)) (hY : ∀ d m, IsNum (Y d m)) (m : ι) :
    IsNum (logit x Y m) := by
  unfold logit
  have hg : IsNum (gap x Y m) :=
    ((sqn_num hx).add (sqn_num fun d => hY d m)).sub (two_num.mul (dotp_num hx fun d => hY d m))
  obtain ⟨g, hg⟩ := hg
  obtain ⟨e, he, hfl⟩ := floor_pos
  obtain ⟨o, ho⟩ := one_num
  have hmax : max (gap x Y m) floor_ = ((max g e : ℝ) : EReal) := by
    rw [hg, hfl]
    rcases le_total g e with h | h
    · rw [max_eq_right h, max_eq_right (EReal.coe_le_coe_iff.2 h)]
    · rw [max_eq_left h, max_eq_left (EReal.coe_le_coe_iff.2 h)]
  have hpos : (max g e : ℝ) ≠ 0 := ne_of_gt (lt_of_lt_of_le he (le_max_right g e))
  rw [hmax, Ideal.div_coe hpos, ho]
  exact two_num.mul ⟨_, (EReal.coe_mul _ _).symm⟩

theorem top_num {x : Fin 3 → EReal} {Y : Fin 3 → ι → EReal} (hx : ∀ d, IsNum (x d)) (hY : ∀ d m, IsNum (Y d m)) :
    IsNum (top x Y) := by
  unfold top
  rw [ninf_eq]
  exact IsNum.foldmax _ (logit_num hx hY)

theorem wt_pos {x : Fin 3 → EReal} {Y : Fin 3 → ι → EReal} (hx : ∀ d, IsNum (x d)) (hY : ∀ d m, IsNum (Y d m)) (m : ι) :
    ∃ r : ℝ, 0 < r ∧ wt x Y m = (r : EReal) := by
  unfold wt
  obtain ⟨s, hs⟩ := (logit_num hx hY m).sub (top_num hx hY)
  rw [hs]
  exact ⟨Real.exp s, Real.exp_pos s, Ideal.exp_coe s⟩

/-- Real positive weights and real targets: dividing the weighted sum by the total weight is summing the targets
    against the weights each divided by the total. -/
theorem div_sum_eq_sum_div (w y : ι → EReal) (hw : ∀ m, ∃ r : ℝ, 0 < r ∧ w m = (r : EReal)) (hy : ∀ m, IsNum (y m)) :
    Ideal.div (∑ m, w m * y m) (∑ m, w m) = ∑ m, y m * Ideal.div (w m) (∑ m', w m') := by
  choose a ha using hw
  choose b hb using hy
  have hL : (0 : ℝ) < ∑ m, a m := Finset.sum_pos (fun m _ => (ha m).1) Finset.univ_nonempty
  have hw' : ∀ m, w m = (a m : EReal) := fun m => (ha m).2
  have hden : (∑ m, w m) = ((∑ m, a m : ℝ) : EReal) := by
    rw [coe_sum]; exact Finset.sum_congr rfl fun m _ => hw' m
  rw [hden]
  simp only [Ideal.div_coe (ne_of_gt hL), hw', hb, ← EReal.coe_mul, ← coe_sum]
  refine congrArg _ ?_
  rw [Finset.sum_mul]
  exact Finset.sum_congr rfl fun m _ => by ring

theorem nearR_eq {x : Fin 3 → EReal} {Y : Fin 3 → ι → EReal} (hx : ∀ d, IsNum (x d)) (hY : ∀ d m, IsNum (Y d m)) (d : Fin 3) :
    nearR x Y d = near x Y d := by
  unfold nearR near den
  rw [wtR_eq]
  exact (div_sum_eq_sum_div (wt x Y) (fun m => Y d m) (wt_pos hx hY) (hY d)).symm

theorem offR_eq {x : Fin 3 → EReal} {Y : Fin 3 → ι → EReal} (hx : ∀ d, IsNum (x d)) (hY : ∀ d m, IsNum (Y d m)) :
    offR x Y = off x Y := by
  unfold offR off
  simp only [nearR_eq hx hY]

theorem meanOffR_eq {κ : Type} [Fintype κ] {X : Fin 3 → κ → EReal} {Y : Fin 3 → ι → EReal}
    (hX : ∀ d n, IsNum (X d n)) (hY : ∀ d m, IsNum (Y d m)) : meanOffR X Y = meanOff X Y := by
  unfold meanOffR meanOff
  exact congrArg (Ideal.div · count) (Finset.sum_congr rfl fun n _ => offR_eq (fun d => hX d n) hY)

end Real

end Cert.SoftNN

end
-- ==== Proof.RefRead.lean ====
/-
  The reference program read at an index. Its stages are: the squared norms of the query points and of the targets
  (sums over the three coordinates), their inner products, the expanded squared distance |x|² − 2 x·y + |y|², its
  floor, the logit 2 / (floored distance), the row maximum of the logits (a fold of max from −∞ over the targets),
  the weights exp (logit − maximum), their row sums, the normalised weights, the weighted sum of the targets against
  the normalised weights (the soft nearest point), the residual x − nearest + shift, its Euclidean length, and the
  mean of the lengths over the query points. Each stage, read at explicit coordinates, is the corresponding function
  of the specification applied to query point n and the family of targets; the sums the program starts from the
  zero pattern are the plain sums (0 + s = s).
-/
import proofs.«132407_j1563368096435_2_alg».proof.Proof.Gen.ReferenceIdeal.Read
import proofs.«132407_j1563368096435_2_alg».proof.Proof.Spec
import Idealize.ShloMosaic.Lib.ValueIdx
import Idealize.ShloMosaic.PureOps.Ideal.Laws
import Idealize.ShloMosaic.PureOps.Reduce

noncomputable section

open scoped BigOperators

namespace Cert.RefSide

open Idealize.ShloMosaic Idealize.ShloMosaic.ValueIdx Cert.ReferenceIdeal Cert.ReferenceIdeal.Read Cert.SoftNN

variable (x0 x1 : (⟨S3x8192, .f32⟩ : BufTy).Contents (Elt Ideal))

/-! ## The index maps of the layout operations, at coordinates -/

/-- Coordinate k of point n: the index a sum over the three coordinates reads at. -/
theorem idx_v1 (n : Fin 8192) (k : Fin 3) : idx_main_v1 (ix1 n) k = ix2 k n :=
  funext fun a => Fin.ext (by match a with | ⟨0, _⟩ => rfl | ⟨1, _⟩ => rfl)
theorem idx_v3 (n : Fin 8192) (k : Fin 3) : idx_main_v3 (ix1 n) k = ix2 k n :=
  funext fun a => Fin.ext (by match a with | ⟨0, _⟩ => rfl | ⟨1, _⟩ => rfl)
theorem lidx_v4 (n m : Fin 8192) (k : Fin 3) : lidx_main_v4 (ix2 n m) k = ix2 k n :=
  funext fun a => Fin.ext (by match a with | ⟨0, _⟩ => rfl | ⟨1, _⟩ => rfl)
theorem ridx_v4 (n m : Fin 8192) (k : Fin 3) : ridx_main_v4 (ix2 n m) k = ix2 k m :=
  funext fun a => Fin.ext (by match a with | ⟨0, _⟩ => rfl | ⟨1, _⟩ => rfl)
/-- A column [8192, 1] broadcast along the rows reads row n. -/
theorem idx_v8 (n m : Fin 8192) : idx_main_v5 (idx_main_v8 (ix2 n m)) = ix1 n :=
  funext fun a => Fin.ext (by match a with | ⟨0, _⟩ => rfl)
/-- A row [1, 8192] broadcast down the columns reads column m. -/
theorem idx_v11 (n m : Fin 8192) : idx_main_v10 (idx_main_v11 (ix2 n m)) = ix1 m :=
  funext fun a => Fin.ext (by match a with | ⟨0, _⟩ => rfl)

/-! ## Norms, inner products, distances, logits -/

/-- |x_n|². -/
theorem v1_read (n : Fin 8192) : val_main_v1 (F := Ideal) x0 (ix1 n) = sqn (fun d' => x0 (ix2 d' n)) := by
  rw [val_main_v1_apply, val_main_cst_apply, Ideal.ofBits_def, Ideal.ofBits_zero_f32, zero_add]
  refine Finset.sum_congr rfl fun k _ => ?_
  rw [val_main_v0_apply, idx_v1]
  rfl

/-- |y_m|². -/
theorem v3_read (m : Fin 8192) : val_main_v3 (F := Ideal) x1 (ix1 m) = sqn (fun d' => x1 (ix2 d' m)) := by
  rw [val_main_v3_apply, val_main_cst_0_apply, Ideal.ofBits_def, Ideal.ofBits_zero_f32, zero_add]
  refine Finset.sum_congr rfl fun k _ => ?_
  rw [val_main_v2_apply, idx_v3]
  rfl

/-- x_n · y_m. -/
theorem v4_read (n m : Fin 8192) :
    val_main_v4 (F := Ideal) x0 x1 (ix2 n m) = dotp (fun d' => x0 (ix2 d' n)) (fun d' => x1 (ix2 d' m)) := by
  rw [val_main_v4_apply]
  refine Finset.sum_congr rfl fun k _ => ?_
  rw [lidx_v4, ridx_v4]

/-- The expanded squared distance, the doubled inner product subtracted first. -/
theorem v12_read (n m : Fin 8192) :
    val_main_v12 (F := Ideal) x0 x1 (ix2 n m) = gapR (fun d' => x0 (ix2 d' n)) (fun d' m' => x1 (ix2 d' m')) m := by
  rw [val_main_v12_apply, val_main_v9_apply, val_main_v8_apply, val_main_v5_apply, idx_v8, v1_read,
    val_main_v7_apply, val_main_v6_apply, val_main_cst_1_apply, v4_read,
    val_main_v11_apply, val_main_v10_apply, idx_v11, v3_read]
  rfl

/-- The logit: twice the reciprocal of the floored squared distance. -/
theorem v17_read (n m : Fin 8192) :
    val_main_v17 (F := Ideal) x0 x1 (ix2 n m) = logitR (fun d' => x0 (ix2 d' n)) (fun d' m' => x1 (ix2 d' m')) m := by
  rw [val_main_v17_apply, val_main_v16_apply, val_main_cst_4_apply, val_main_v15_apply, val_main_v14_apply,
    val_main_cst_3_apply, val_main_v13_apply, val_main_call0_v1_apply, val_main_call0_v0_apply, val_main_cst_2_apply,
    v12_read]
  rfl

/-! ## The row maximum -/

/-- Row n with column k inserted on the reduced axis. -/
theorem lift_v18 (h : S8192x8192.Reduces [(1 : Fin S8192x8192.rank)] S8192) (n k : Fin 8192) :
    h.lift (ix1 n) k = ix2 n k :=
  funext fun a => Fin.ext (by match a with | ⟨0, _⟩ => rfl | ⟨1, _⟩ => rfl)

/-- The reduction by maximum over the targets is the fold of max, from −∞, of the logits of row n: max is
    commutative and associative, so the order the program folds in does not matter. -/
theorem v18_read (n : Fin 8192) :
    val_main_v18 (F := Ideal) x0 x1 (ix1 n)
      = Finset.univ.fold max ninf (logitR (fun d' => x0 (ix2 d' n)) (fun d' m' => x1 (ix2 d' m'))) := by
  have h : S8192x8192.Reduces [(1 : Fin S8192x8192.rank)] S8192 := by decide
  have e : val_main_v17 (F := Ideal) x0 x1 ∘ h.lift (ix1 n)
      = logitR (fun d' => x0 (ix2 d' n)) (fun d' m' => x1 (ix2 d' m')) :=
    funext fun m => (congrArg (val_main_v17 (F := Ideal) x0 x1) (lift_v18 h n m)).trans (v17_read x0 x1 n m)
  unfold val_main_v18
  rw [Host.reduce_eq_fold_single FloatOps.maximumf _ _ _ h _ (ix1 n), e]
  rfl

theorem v20_read (n : Fin 8192) :
    val_main_v20 (F := Ideal) x0 x1 (ix1 n) = topR (fun d' => x0 (ix2 d' n)) (fun d' m' => x1 (ix2 d' m')) := by
  rw [val_main_v20_apply, val_main_v19_apply, val_main_cst_6_apply, v18_read]
  rfl

/-! ## Weights, their total, the normalised weights -/

theorem idx_v22 (n m : Fin 8192) : idx_main_v21 (idx_main_v22 (ix2 n m)) = ix1 n :=
  funext fun a => Fin.ext (by match a with | ⟨0, _⟩ => rfl)
theorem idx_v25 (n k : Fin 8192) : idx_main_v25 (ix1 n) k = ix2 n k :=
  funext fun a => Fin.ext (by match a with | ⟨0, _⟩ => rfl | ⟨1, _⟩ => rfl)
theorem idx_v27 (n m : Fin 8192) : idx_main_v26 (idx_main_v27 (ix2 n m)) = ix1 n :=
  funext fun a => Fin.ext (by match a with | ⟨0, _⟩ => rfl)

/-- The weight of target m for query n. -/
theorem v24_read (n m : Fin 8192) :
    val_main_v24 (F := Ideal) x0 x1 (ix2 n m) = wtR (fun d' => x0 (ix2 d' n)) (fun d' m' => x1 (ix2 d' m')) m := by
  rw [val_main_v24_apply, val_main_v23_apply, v17_read, val_main_v22_apply, val_main_v21_apply, idx_v22, v20_read]
  rfl

/-- The total weight of query n. -/
theorem v25_read (n : Fin 8192) :
    val_main_v25 (F := Ideal) x0 x1 (ix1 n) = ∑ m, wtR (fun d' => x0 (ix2 d' n)) (fun d' m' => x1 (ix2 d' m')) m := by
  rw [val_main_v25_apply, val_main_cst_7_apply, Ideal.ofBits_def, Ideal.ofBits_zero_f32, zero_add]
  refine Finset.sum_congr rfl fun k _ => ?_
  rw [idx_v25, v24_read]

/-- The normalised weight. -/
theorem v28_read (n m : Fin 8192) :
    val_main_v28 (F := Ideal) x0 x1 (ix2 n m)
      = Ideal.div (wtR (fun d' => x0 (ix2 d' n)) (fun d' m' => x1 (ix2 d' m')) m)
          (∑ m'', wtR (fun d' => x0 (ix2 d' n)) (fun d' m' => x1 (ix2 d' m')) m'') := by
  rw [val_main_v28_apply, v24_read, val_main_v27_apply, val_main_v26_apply, idx_v27, v25_read]
  rfl

/-! ## The soft nearest point -/

theorem lidx_v29 (d : Fin 3) (n k : Fin 8192) : lidx_main_v29 (ix2 d n) k = ix2 d k :=
  funext fun a => Fin.ext (by match a with | ⟨0, _⟩ => rfl | ⟨1, _⟩ => rfl)
theorem ridx_v29 (d : Fin 3) (n k : Fin 8192) : ridx_main_v29 (ix2 d n) k = ix2 n k :=
  funext fun a => Fin.ext (by match a with | ⟨0, _⟩ => rfl | ⟨1, _⟩ => rfl)

theorem near_read (x0 x1 : (⟨S3x8192, .f32⟩ : BufTy).Contents (Elt Ideal)) (d : Fin 3) (n : Fin 8192) :
    val_main_v29 (F := Ideal) x0 x1 (ix2 d n)
      = nearR (fun d' => x0 (ix2 d' n)) (fun d' m => x1 (ix2 d' m)) d := by
  rw [val_main_v29_apply]
  refine Finset.sum_congr rfl fun k _ => ?_
  rw [lidx_v29, ridx_v29, v28_read]

/-! ## The offsets and their mean -/

theorem idx_v34 (n : Fin 8192) (k : Fin 3) : idx_main_v34 (ix1 n) k = ix2 k n :=
  funext fun a => Fin.ext (by match a with | ⟨0, _⟩ => rfl | ⟨1, _⟩ => rfl)

/-- The offset of query n: the length of x_n − nearest + shift. -/
theorem v35_read (n : Fin 8192) :
    val_main_v35 (F := Ideal) x0 x1 (ix1 n) = offR (fun d' => x0 (ix2 d' n)) (fun d' m' => x1 (ix2 d' m')) := by
  rw [val_main_v35_apply, Ideal.hostUnary_sqrt_def, val_main_v34_apply, val_main_cst_9_apply, Ideal.ofBits_def,
    Ideal.ofBits_zero_f32, zero_add]
  unfold offR
  refine congrArg Ideal.sqrt (Finset.sum_congr rfl fun k _ => ?_)
  rw [idx_v34, val_main_v33_apply, val_main_v32_apply, val_main_v30_apply, near_read, val_main_v31_apply,
    val_main_cst_8_apply]
  rfl

/-- The indices of a one-axis array of 8192 entries are its coordinates. -/
def idxEquiv1 : S8192.Idx ≃ Fin 8192 where
  toFun j := j 0
  invFun n := ix1 n
  left_inv j := (eq_ix1 j).symm
  right_inv n := rfl

/-- A sum over the indices of a one-axis array is the sum over the coordinates. -/
theorem sum_idx1 {M : Type} [AddCommMonoid M] (f : S8192.Idx → M) : ∑ j, f j = ∑ n : Fin 8192, f (ix1 n) :=
  (Equiv.sum_comp idxEquiv1.symm f).symm

theorem mean_read (x0 x1 : (⟨S3x8192, .f32⟩ : BufTy).Contents (Elt Ideal)) (i : S_.Idx) :
    val_main_v37 (F := Ideal) x0 x1 i
      = meanOffR (fun d' (n : Fin 8192) => x0 (ix2 d' n)) (fun d' (m : Fin 8192) => x1 (ix2 d' m)) := by
  rw [val_main_v37_apply, val_main_v36_apply, val_main_cst_10_apply, Ideal.ofBits_def, Ideal.ofBits_zero_f32, zero_add,
    val_main_cst_11_apply, sum_idx1]
  simp only [v35_read]
  rfl

end Cert.RefSide

end
-- ==== Proof.KernelTail.lean ====
import proofs.«132407_j1563368096435_2_alg».proof.Proof.Gen.KernelIdeal.Frame
import proofs.«132407_j1563368096435_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

/-
  The host operations after the kernel region: the second output array, one row of 8192 offsets, is summed over both
  axes from zero and the sum is divided by the count. What the region leaves in that array is what the frame run's
  proof data computes for window 4; the scalar result is no array of the pipeline, so the run's post states it as the
  tail operations applied to the region's exit contents.
-/
namespace Cert.KernelSide

open Idealize.ShloMosaic Idealize.ShloMosaic.TcCoe Idealize.ShloMosaic.ValueIdx Idealize.SL.Sem Cert.KernelIdeal Cert.KernelIdeal.Gen Cert.SoftNN
open Idealize.ShloMosaic.StableHlo

variable (m : (ℓ : Loc nD τ sig) → Buf (Elt Ideal) ℓ) (c : Dev nD)

/-- The scalar result after the tail: the sum of the region's second output array, divided by the count. -/
theorem tail_read : (Pipeline.afterTail₀ cfgs (dats m) 0 (V0 m) [hostOps1] c main_v3 : S_.Idx → EReal)
    = Host.divf (F := Ideal) (Host.reduceAdd (F := Ideal) (φ := .f32) ((dats m 0 c).arrAt 4 cfg0.N : S1x8192.Idx → EReal) (constant (F := Ideal) S_ .f32 0x00000000#32) reducesTo_S1x8192_S_d0_1 h_S_) (constant (F := Ideal) S_ .f32 0x46000000#32) := by
  unfold Pipeline.afterTail₀
  show StableHlo.after hostOps1 _ (Proc.devRef .tc main_v3) = _
  after_results
  exact congrArg (fun A : S1x8192.Idx → EReal => Host.divf (F := Ideal) (Host.reduceAdd (F := Ideal) (φ := .f32) A (constant (F := Ideal) S_ .f32 0x00000000#32) reducesTo_S1x8192_S_d0_1 h_S_) (constant (F := Ideal) S_ .f32 0x46000000#32))
    (Pipeline.withArrays_arr spec0 launch0.win.arr_inj c _ _ 4)

/-- The scalar result is an unscoped buffer that no window stages. -/
theorem v3_rest : main_v3 ∈ Pipeline.restRefs sig (cfgs 0).spec :=
  Pipeline.mem_restRefs_of main_v3 (by decide) (by decide)

/-- The mean of a row: the host's sum over both axes of a 1×8192 array whose entry (0, n) is g n, divided by the
    count pattern, is the sum of g over n divided by the count. -/
theorem mean_of_row (g : Fin 8192 → EReal) (i : S_.Idx) :
    Host.divf (F := Ideal) (Host.reduceAdd (F := Ideal) (φ := .f32) (fun j : S1x8192.Idx => g (j 1)) (constant (F := Ideal) S_ .f32 0x00000000#32) reducesTo_S1x8192_S_d0_1 h_S_) (constant (F := Ideal) S_ .f32 0x46000000#32) i
      = Ideal.div (∑ n, g n) count := by
  show Ideal.div (Ideal.hostReduceAdd reducesTo_S1x8192_S_d0_1 (fun j : S1x8192.Idx => g (j 1)) (Ideal.ofBits .f32 0x00000000#32) i) count = _
  rw [Ideal.hostReduceAdd_total reducesTo_S1x8192_S_d0_1 (fun b => b.elim0), Ideal.ofBits_zero_f32, zero_add, sum_idx2]
  rw [Fintype.sum_unique]

end Cert.KernelSide
end
-- ==== Proof.LibAxisFold.lean ====
/-
  A reduction over one axis of a two-axis array on the extended reals, read at a row or a column.

  For an a×b array X:
    * the index over row p with coordinate k inserted on the second axis is (p, k); over column c with coordinate r
      inserted on the first axis it is (r, c);
    * the vector unit's sum over the second axis, at row p, is Σ_k X(p, k); over the first axis, at column c, Σ_r X(r, c);
    * its maximum over the second axis from the accumulator pattern acc, at row p, is the fold of max over k of X(p, k)
      from the value of acc.
-/
import Idealize.ShloMosaic.PureOps.Ideal.Laws
import Idealize.ShloMosaic.Lib.ValueIdx

noncomputable section

namespace Idealize.ShloMosaic.AxisFold

open Idealize.ShloMosaic Idealize.ShloMosaic.ValueIdx

/-- Row p with k inserted on the second axis is (p, k). -/
theorem lift_second {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's sum over the second axis, at row p. -/
theorem sum_second_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_second h p k)

/-- The vector unit's sum over the first axis, at column c. -/
theorem sum_first_apply {a b : ℕ} (X : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ X 0x00000000#32 h hφ hacc (ix1 c) = ∑ r : Fin a, X (ix2 r c) := by
  refine (Ideal.multiReduction_add_single X 0x00000000#32 h hφ hacc (ix1 c)).trans ?_
  exact Finset.sum_congr rfl fun r _ => congrArg X (lift_first h c r)

/-- The vector unit's maximum over the second axis from the pattern acc, at row p. -/
theorem max_second_apply {a b : ℕ} (X : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (p : Fin a) :
    multiReduction .maximumf [1] ⟨1, ![a]⟩ X acc h hφ hacc (ix1 p)
      = (Finset.univ : Finset (Fin b)).fold max (Ideal.ofBits .f32 acc) (fun k => X (ix2 p k)) := by
  refine (Ideal.multiReduction_maximumf_single X acc h hφ hacc (ix1 p)).trans ?_
  have e : (X ∘ h.lift (ix1 p)) = fun k : Fin b => X (ix2 p k) :=
    funext fun k => congrArg X (lift_second h p k)
  rw [e]
  rfl

end Idealize.ShloMosaic.AxisFold

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.KernelDots.lean ====
import proofs.«132407_j1563368096435_2_alg».proof.Proof.Gen.KernelIdeal.Skeleton
import proofs.«132407_j1563368096435_2_alg».proof.Proof.Spec
import proofs.«132407_j1563368096435_2_alg».proof.Proof.LibAxisFold
import proofs.«132407_j1563368096435_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 8192

noncomputable section

/-
  The two matrix products of the kernel body at the ideal values, read at an index: the inner products of a block of
  query points with all target points (contracting the coordinate axis of both operands), and the weighted sum of the
  target points (contracting the target axis of the weights with the rows of the transposed targets).
-/
namespace Cert.KernelSide

open Idealize.ShloMosaic Idealize.ShloMosaic.ValueIdx Cert.KernelIdeal Cert.KernelIdeal.Gen Cert.SoftNN

theorem crossL0 (i : S256x8192.Idx) (q : dot_S3x256_S3x8192_S256x8192_0_0_1_1_n_n.contr.Idx) :
    (dot_S3x256_S3x8192_S256x8192_0_0_1_1_n_n.lhsIdx i q 0).val = (q ⟨0, by decide⟩).val :=
  dot_S3x256_S3x8192_S256x8192_0_0_1_1_n_n.lhsIdx_val_of_single rfl i q
theorem crossL1 (i : S256x8192.Idx) (q : dot_S3x256_S3x8192_S256x8192_0_0_1_1_n_n.contr.Idx) :
    (dot_S3x256_S3x8192_S256x8192_0_0_1_1_n_n.lhsIdx i q 1).val = (i 0).val := by
  unfold DotDims.lhsIdx
  rw [dif_neg (show ¬(1 : Fin S3x256.rank) ∈ dot_S3x256_S3x8192_S256x8192_0_0_1_1_n_n.lhsBatch by decide),
    dif_pos (show (1 : Fin S3x256.rank) ∈ dot_S3x256_S3x8192_S256x8192_0_0_1_1_n_n.lhsNonContracting by decide)]
  rfl
theorem crossR0 (i : S256x8192.Idx) (q : dot_S3x256_S3x8192_S256x8192_0_0_1_1_n_n.contr.Idx) :
    (dot_S3x256_S3x8192_S256x8192_0_0_1_1_n_n.rhsIdx i q 0).val = (q ⟨0, by decide⟩).val :=
  dot_S3x256_S3x8192_S256x8192_0_0_1_1_n_n.rhsIdx_val_of_single rfl i q
theorem crossR1 (i : S256x8192.Idx) (q : dot_S3x256_S3x8192_S256x8192_0_0_1_1_n_n.contr.Idx) :
    (dot_S3x256_S3x8192_S256x8192_0_0_1_1_n_n.rhsIdx i q 1).val = (i 1).val := by
  unfold DotDims.rhsIdx
  rw [dif_neg (show ¬(1 : Fin S3x8192.rank) ∈ dot_S3x256_S3x8192_S256x8192_0_0_1_1_n_n.rhsBatch by decide),
    dif_pos (show (1 : Fin S3x8192.rank) ∈ dot_S3x256_S3x8192_S256x8192_0_0_1_1_n_n.rhsNonContracting by decide)]
  rfl

/-- Entry (r, m) of the product of a 3×256 block and a 3×8192 array over their first axes: Σ_k a(k, r) b(k, m). -/
theorem cross_apply (a : FVec Ideal S3x256 .f32) (b : FVec Ideal S3x8192 .f32) (r : Fin 256) (m : Fin 8192) :
    matmul dot_S3x256_S3x8192_S256x8192_0_0_1_1_n_n none a b (constant S256x8192 .f32 0x00000000#32) (ix2 r m)
      = ∑ k : Fin 3, a (ix2 k r) * b (ix2 k m) := by
  simp only [matmul]
  rw [Ideal.matmul_constant_zero_apply, ← Equiv.sum_comp (contrEquiv1 dot_S3x256_S3x8192_S256x8192_0_0_1_1_n_n 3 rfl rfl).symm]
  refine Finset.sum_congr rfl fun k _ => ?_
  have hk := contrEquiv1_symm_val dot_S3x256_S3x8192_S256x8192_0_0_1_1_n_n 3 rfl rfl k
  have el : dot_S3x256_S3x8192_S256x8192_0_0_1_1_n_n.lhsIdx (ix2 r m) ((contrEquiv1 dot_S3x256_S3x8192_S256x8192_0_0_1_1_n_n 3 rfl rfl).symm k) = ix2 k r :=
    funext fun ax => Fin.ext (by
      match ax with
      | ⟨0, _⟩ => exact (crossL0 _ _).trans hk
      | ⟨1, _⟩ => exact crossL1 _ _)
  have er : dot_S3x256_S3x8192_S256x8192_0_0_1_1_n_n.rhsIdx (ix2 r m) ((contrEquiv1 dot_S3x256_S3x8192_S256x8192_0_0_1_1_n_n 3 rfl rfl).symm k) = ix2 k m :=
    funext fun ax => Fin.ext (by
      match ax with
      | ⟨0, _⟩ => exact (crossR0 _ _).trans hk
      | ⟨1, _⟩ => exact crossR1 _ _)
  rw [el, er]

theorem blendL0 (i : S256x3.Idx) (q : dot_S256x8192_S8192x3_S256x3_1_0_0_1_n_n.contr.Idx) :
    (dot_S256x8192_S8192x3_S256x3_1_0_0_1_n_n.lhsIdx i q 0).val = (i 0).val := by
  unfold DotDims.lhsIdx
  rw [dif_neg (show ¬(0 : Fin S256x8192.rank) ∈ dot_S256x8192_S8192x3_S256x3_1_0_0_1_n_n.lhsBatch by decide),
    dif_pos (show (0 : Fin S256x8192.rank) ∈ dot_S256x8192_S8192x3_S256x3_1_0_0_1_n_n.lhsNonContracting by decide)]
  rfl
theorem blendL1 (i : S256x3.Idx) (q : dot_S256x8192_S8192x3_S256x3_1_0_0_1_n_n.contr.Idx) :
    (dot_S256x8192_S8192x3_S256x3_1_0_0_1_n_n.lhsIdx i q 1).val = (q ⟨0, by decide⟩).val :=
  dot_S256x8192_S8192x3_S256x3_1_0_0_1_n_n.lhsIdx_val_of_single rfl i q
theorem blendR0 (i : S256x3.Idx) (q : dot_S256x8192_S8192x3_S256x3_1_0_0_1_n_n.contr.Idx) :
    (dot_S256x8192_S8192x3_S256x3_1_0_0_1_n_n.rhsIdx i q 0).val = (q ⟨0, by decide⟩).val :=
  dot_S256x8192_S8192x3_S256x3_1_0_0_1_n_n.rhsIdx_val_of_single rfl i q
theorem blendR1 (i : S256x3.Idx) (q : dot_S256x8192_S8192x3_S256x3_1_0_0_1_n_n.contr.Idx) :
    (dot_S256x8192_S8192x3_S256x3_1_0_0_1_n_n.rhsIdx i q 1).val = (i 1).val := by
  unfold DotDims.rhsIdx
  rw [dif_neg (show ¬(1 : Fin S8192x3.rank) ∈ dot_S256x8192_S8192x3_S256x3_1_0_0_1_n_n.rhsBatch by decide),
    dif_pos (show (1 : Fin S8192x3.rank) ∈ dot_S256x8192_S8192x3_S256x3_1_0_0_1_n_n.rhsNonContracting by decide)]
  rfl

/-- Entry (r, d) of the product of a 256×8192 array and an 8192×3 array: Σ_m p(r, m) w(m, d). -/
theorem blend_apply (p : FVec Ideal S256x8192 .f32) (w : FVec Ideal S8192x3 .f32) (r : Fin 256) (d : Fin 3) :
    matmul dot_S256x8192_S8192x3_S256x3_1_0_0_1_n_n none p w (constant S256x3 .f32 0x00000000#32) (ix2 r d)
      = ∑ m : Fin 8192, p (ix2 r m) * w (ix2 m d) := by
  simp only [matmul]
  rw [Ideal.matmul_constant_zero_apply, ← Equiv.sum_comp (contrEquiv1 dot_S256x8192_S8192x3_S256x3_1_0_0_1_n_n 8192 rfl rfl).symm]
  refine Finset.sum_congr rfl fun k _ => ?_
  have hk := contrEquiv1_symm_val dot_S256x8192_S8192x3_S256x3_1_0_0_1_n_n 8192 rfl rfl k
  have el : dot_S256x8192_S8192x3_S256x3_1_0_0_1_n_n.lhsIdx (ix2 r d) ((contrEquiv1 dot_S256x8192_S8192x3_S256x3_1_0_0_1_n_n 8192 rfl rfl).symm k) = ix2 r k :=
    funext fun ax => Fin.ext (by
      match ax with
      | ⟨0, _⟩ => exact blendL0 _ _
      | ⟨1, _⟩ => exact (blendL1 _ _).trans hk)
  have er : dot_S256x8192_S8192x3_S256x3_1_0_0_1_n_n.rhsIdx (ix2 r d) ((contrEquiv1 dot_S256x8192_S8192x3_S256x3_1_0_0_1_n_n 8192 rfl rfl).symm k) = ix2 k d :=
    funext fun ax => Fin.ext (by
      match ax with
      | ⟨0, _⟩ => exact (blendR0 _ _).trans hk
      | ⟨1, _⟩ => exact blendR1 _ _)
  rw [el, er]

end Cert.KernelSide

end
-- ==== Proof.KernelPay.lean ====
import proofs.«132407_j1563368096435_2_alg».proof.Proof.Gen.KernelIdeal.Skeleton
import proofs.«132407_j1563368096435_2_alg».proof.Proof.Spec
import proofs.«132407_j1563368096435_2_alg».proof.Proof.KernelDots
import proofs.«132407_j1563368096435_2_alg».proof.Proof.LibAxisFold
import proofs.«132407_j1563368096435_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 8192

noncomputable section

/-
  What the kernel body computes from a block of 256 query points (a 3×256 block), all 8192 target points (3×8192) and
  the transposed targets (8192×3), entry by entry.

  The body first forms the 256×8192 block of logits: entry (r, m) is the logit of target m for the query point in
  column r of the block. From the logits it takes each row's maximum, exponentiates the differences, and divides the
  product of the weights with the transposed targets by the row sums of the weights: entry (d, r) of what it stores is
  coordinate d of the soft nearest point of query r. The second output is, per query, the length of the residual.
  The block of logits is named here so that the two halves are read separately; the body's payload is their
  composition by unfolding.
-/
namespace Cert.KernelSide

open Idealize.ShloMosaic Idealize.ShloMosaic.ValueIdx Cert.KernelIdeal Cert.KernelIdeal.Gen Cert.SoftNN

/-- The 256×8192 block of logits, as the body computes it from the query block and the targets. -/
def logits (v0 : FVec Ideal S3x256 .f32) (v1 : FVec Ideal S3x8192 .f32) : FVec Ideal S256x8192 .f32 :=
  have v4 : FVec Ideal S3x256 .f32 := mulf v0 v0
  have v5 : FVec Ideal S256 .f32 := multiReduction .add [0] S256 v4 0x00000000#32 reduces_S3x256_S256 (.inl rfl) rfl
  have v6 : FVec Ideal S1x256 .f32 := shapeCast S1x256 v5 shapeCasts_S256_S1x256
  have v7 : FVec Ideal S3x8192 .f32 := mulf v1 v1
  have v8 : FVec Ideal S8192 .f32 := multiReduction .add [0] S8192 v7 0x00000000#32 reduces_S3x8192_S8192 (.inl rfl) rfl
  have v9 : FVec Ideal S1x8192 .f32 := shapeCast S1x8192 v8 shapeCasts_S8192_S1x8192
  have cst_6 : FVec Ideal S256x8192 .f32 := constant S256x8192 .f32 0x00000000#32
  have v10 : FVec Ideal S256x8192 .f32 := matmul dot_S3x256_S3x8192_S256x8192_0_0_1_1_n_n none v0 v1 cst_6
  have v11 : FVec Ideal S256x1 .f32 := transpose S256x1 [1, 0] v6 transposes_S1x256_p1_0_S256x1
  have v12 : FVec Ideal S256x8192 .f32 := broadcastTo S256x8192 v11 broadcasts_S256x1_S256x8192
  have v13 : FVec Ideal S256x8192 .f32 := broadcastTo S256x8192 v9 broadcasts_S1x8192_S256x8192
  have v14 : FVec Ideal S256x8192 .f32 := addf v12 v13
  have cst_7 : Ideal .f32 := Scalar.ofBits .f32 0x40000000#32
  have v15 : FVec Ideal S256x8192 .f32 := broadcast S256x8192 cst_7
  have v16 : FVec Ideal S256x8192 .f32 := mulf v15 v10
  have v17 : FVec Ideal S256x8192 .f32 := subf v14 v16
  have cst_8 : Ideal .f32 := Scalar.ofBits .f32 0x3727C5AC#32
  have v18 : FVec Ideal S256x8192 .f32 := broadcast S256x8192 cst_8
  have v19 : FVec Ideal S256x8192 .f32 := maximumf v17 v18
  have cst_9 : Ideal .f32 := Scalar.ofBits .f32 0x3F800000#32
  have v20 : FVec Ideal S256x8192 .f32 := broadcast S256x8192 cst_9
  have v21 : FVec Ideal S256x8192 .f32 := divf v20 v19
  have cst_10 : Ideal .f32 := Scalar.ofBits .f32 0x40000000#32
  have v22 : FVec Ideal S256x8192 .f32 := broadcast S256x8192 cst_10
  have v23 : FVec Ideal S256x8192 .f32 := mulf v22 v21
  v23

/-- From a block of logits and the transposed targets: the 3×256 block of soft nearest points. -/
def blendOf (L : FVec Ideal S256x8192 .f32) (v2 : Vec Ideal S8192x3 .f32) : FVec Ideal S3x256 .f32 :=
  have v3 : FVec Ideal S8192x3 .f32 := shapeCast S8192x3 v2 shapeCasts_S8192x3_S8192x3
  have v24 : FVec Ideal S256 .f32 := multiReduction .maximumf [1] S256 L 0xFF800000#32 reduces_S256x8192_S256 (.inl rfl) rfl
  have v25 : FVec Ideal S256x1 .f32 := shapeCast S256x1 v24 shapeCasts_S256_S256x1
  have v26 : FVec Ideal S256x8192 .f32 := broadcastTo S256x8192 v25 broadcasts_S256x1_S256x8192
  have v27 : FVec Ideal S256x8192 .f32 := subf L v26
  have v28 : FVec Ideal S256x8192 .f32 := exp v27
  have v29 : FVec Ideal S256 .f32 := multiReduction .add [1] S256 v28 0x00000000#32 reduces_S256x8192_S256 (.inl rfl) rfl
  have v30 : FVec Ideal S256x1 .f32 := shapeCast S256x1 v29 shapeCasts_S256_S256x1
  have cst_13 : FVec Ideal S256x3 .f32 := constant S256x3 .f32 0x00000000#32
  have v31 : FVec Ideal S256x3 .f32 := matmul dot_S256x8192_S8192x3_S256x3_1_0_0_1_n_n none v28 v3 cst_13
  have v32 : FVec Ideal S256x3 .f32 := broadcastTo S256x3 v30 broadcasts_S256x1_S256x3
  have v33 : FVec Ideal S256x3 .f32 := divf v31 v32
  have v34 : FVec Ideal S3x256 .f32 := transpose S3x256 [1, 0] v33 transposes_S256x3_p1_0_S3x256
  v34

/-- The body's first stored value is the two halves composed. -/
theorem pay2_split (v0 : Vec Ideal S3x256 .f32) (v1 : Vec Ideal S3x8192 .f32) (v2 : Vec Ideal S8192x3 .f32) :
    k0_pay2 (F := Ideal) v0 v1 v2 = blendOf (logits v0 v1) v2 := rfl

/-- Entry (r, m) of the block of logits is the logit of target m for the query in column r. -/
theorem logits_apply (v0 : FVec Ideal S3x256 .f32) (v1 : FVec Ideal S3x8192 .f32) (r : Fin 256) (m : Fin 8192) :
    logits v0 v1 (ix2 r m) = logit (fun d => v0 (ix2 d r)) (fun d (m' : Fin 8192) => v1 (ix2 d m')) m := by
  unfold logits
  dsimp only
  simp only [mulf_apply, divf_apply, maximumf_apply, subf_apply, addf_apply, broadcast_apply,
    Keepdims.broadcastTo_a1_ab_apply, ValueIdx.transpose_ix2_apply, ValueIdx.shapeCast_a_1a_apply,
    AxisFold.sum_first_apply, ValueIdx.broadcastTo_1b_ab_apply, cross_apply]
  have e1 := AxisFold.sum_first_apply (mulf v1 v1) reduces_S3x8192_S8192 (.inl rfl) rfl m
  have e0 := AxisFold.sum_first_apply (mulf v0 v0) reduces_S3x256_S256 (.inl rfl) rfl r
  have e2 := ValueIdx.transpose_ix2_apply (shapeCast S1x256
                  (multiReduction FKind.add [0] S256 (mulf v0 v0) (0#32) reduces_S3x256_S256 (.inl rfl) rfl)
                  shapeCasts_S256_S1x256) transposes_S1x256_p1_0_S256x1 r (0 : Fin 1)
  rw [e2, ValueIdx.shapeCast_a_1a_apply, e0, e1]
  rfl

/-- Entry (r, m) of the block of weights: the exponential of the logit less the largest logit of row r. -/
theorem weights_apply (L : FVec Ideal S256x8192 .f32) (r : Fin 256) (m : Fin 8192) :
    exp (subf L (broadcastTo S256x8192 (shapeCast S256x1
        (multiReduction .maximumf [1] S256 L 0xFF800000#32 reduces_S256x8192_S256 (.inl rfl) rfl) shapeCasts_S256_S256x1)
        broadcasts_S256x1_S256x8192)) (ix2 r m)
      = Ideal.exp (L (ix2 r m) - Finset.univ.fold max ninf (fun m' : Fin 8192 => L (ix2 r m'))) := by
  show Ideal.exp (L (ix2 r m) - broadcastTo S256x8192 _ broadcasts_S256x1_S256x8192 (ix2 r m)) = _
  rw [Keepdims.broadcastTo_a1_ab_apply, Keepdims.shapeCast_a_a1_apply,
    AxisFold.max_second_apply L 0xFF800000#32 reduces_S256x8192_S256 (.inl rfl) rfl r]
  rfl

/-- Entry (d, r) of the block of soft nearest points: the weights are the exponentials of the logits of row r less
    the row's maximum, their product with the transposed targets is divided by their sum. -/
theorem blendOf_apply (L : FVec Ideal S256x8192 .f32) (v2 : Vec Ideal S8192x3 .f32) (d : Fin 3) (r : Fin 256) :
    blendOf L v2 (ix2 d r)
      = Ideal.div (∑ m : Fin 8192, Ideal.exp (L (ix2 r m) - Finset.univ.fold max ninf (fun m' : Fin 8192 => L (ix2 r m'))) * v2 (ix2 m d))
          (∑ m : Fin 8192, Ideal.exp (L (ix2 r m) - Finset.univ.fold max ninf (fun m' : Fin 8192 => L (ix2 r m')))) := by
  unfold blendOf
  dsimp only
  rw [ValueIdx.transpose_ix2_apply]
  simp only [divf_apply, blend_apply, shapeCast_self]
  rw [Keepdims.broadcastTo_a1_ab_apply, Keepdims.shapeCast_a_a1_apply,
    AxisFold.sum_second_apply _ reduces_S256x8192_S256 (.inl rfl) rfl r]
  refine congrArg₂ Ideal.div (Finset.sum_congr rfl fun m _ => ?_) (Finset.sum_congr rfl fun m _ => ?_)
  · exact congrArg (· * v2 (ix2 m d)) (weights_apply L r m)
  · exact weights_apply L r m

/-- Entry (d, r) of the body's first stored value: coordinate d of the soft nearest point of the query in column r
    of the block, given that the third operand is the transposed targets. -/
theorem pay2_apply (v0 : Vec Ideal S3x256 .f32) (v1 : Vec Ideal S3x8192 .f32) (v2 : Vec Ideal S8192x3 .f32)
    (h2 : ∀ (m : Fin 8192) (d : Fin 3), v2 (ix2 m d) = v1 (ix2 d m)) (d : Fin 3) (r : Fin 256) :
    k0_pay2 (F := Ideal) v0 v1 v2 (ix2 d r) = near (fun d' => v0 (ix2 d' r)) (fun d' (m : Fin 8192) => v1 (ix2 d' m)) d := by
  rw [pay2_split, blendOf_apply]
  simp only [logits_apply, h2]
  rfl

/-- Entry (0, r) of the body's second stored value: the offset of the query in column r of the block. -/
theorem pay1_apply (v0 : Vec Ideal S3x256 .f32) (v1 : Vec Ideal S3x8192 .f32) (v2 : Vec Ideal S8192x3 .f32)
    (h2 : ∀ (m : Fin 8192) (d : Fin 3), v2 (ix2 m d) = v1 (ix2 d m)) (u : Fin 1) (r : Fin 256) :
    k0_pay1 (F := Ideal) (k0_pay3 v0 v1 v2) (ix2 u r) = off (fun d' => v0 (ix2 d' r)) (fun d' (m : Fin 8192) => v1 (ix2 d' m)) := by
  unfold k0_pay1 k0_pay3
  dsimp only
  show Ideal.sqrt (shapeCast S1x256 _ shapeCasts_S256_S1x256 (ix2 u r)) = _
  rw [ValueIdx.shapeCast_a_1a_apply, AxisFold.sum_first_apply _ reduces_S3x256_S256 (.inl rfl) rfl r]
  unfold off
  refine congrArg Ideal.sqrt (Finset.sum_congr rfl fun d _ => ?_)
  have e : ∀ d : Fin 3, addf (subf v0 (k0_pay2 v0 v1 v2)) (broadcast S3x256 (Scalar.ofBits .f32 0x358637BD#32)) (ix2 d r)
      = (fun d' => v0 (ix2 d' r)) d - near (fun d' => v0 (ix2 d' r)) (fun d' (m : Fin 8192) => v1 (ix2 d' m)) d + shift := by
    intro d
    show v0 (ix2 d r) - k0_pay2 (F := Ideal) v0 v1 v2 (ix2 d r) + _ = _
    rw [pay2_apply v0 v1 v2 h2 d r]
    rfl
  show addf _ _ (ix2 d r) * addf _ _ (ix2 d r) = _
  rw [e d]

end Cert.KernelSide

end
-- ==== Proof.KernelArr.lean ====
/-
  From blocks to arrays. The grid has 32 points; at point t the body reads columns 256 t … 256 t + 255 of the query
  array (a 3×256 block), the whole target array, and the whole transposed target array (the transposition is done
  before the region), and writes columns 256 t … 256 t + 255 of the two outputs. Column n of an output is therefore
  written at the one point n / 256, at column n % 256 of its block, and what is written there depends on query point n
  and on all the targets only: the 32 blocks of 256 columns tile the 8192 columns, and each output array ends as one
  function of the two argument arrays, the soft nearest point of query n in the first and its offset in the second.
-/
import proofs.«132407_j1563368096435_2_alg».proof.Proof.Gen.KernelIdeal.Frame
import proofs.«132407_j1563368096435_2_alg».proof.Proof.KernelPay
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelSide

open Idealize.ShloMosaic Idealize.ShloMosaic.TcCoe Idealize.ShloMosaic.ValueIdx Idealize.SL.Sem
open Cert.KernelIdeal Cert.KernelIdeal.Gen Cert.SoftNN
open Idealize.ShloMosaic.Pipeline (Dat)

variable (m : (ℓ : Loc nD τ sig) → Buf (Elt Ideal) ℓ) (c : Dev nD)

/-- The query points and the target points, by coordinates, from the two argument arrays. -/
def qry : Fin 3 → Fin 8192 → EReal := fun d n => m ((c : Thread nD τ).loc main_arg0) (ix2 d n)
def tgt : Fin 3 → Fin 8192 → EReal := fun d n => m ((c : Thread nD τ).loc main_arg1) (ix2 d n)

/-! ## The transposed targets, as the region finds them -/

/-- The one host operation before the region writes the transposed target array. -/
theorem V_main_v0 : (V m c main_v0 : S8192x3.Idx → EReal)
    = transpose S8192x3 [1, 0] (m ((c : Thread nD τ).loc main_arg1)) transposes_S3x8192_S8192x3_1_0 := by
  show StableHlo.after hostOps0 (fun b => m (c, b)) (Proc.devRef .tc main_v0) = _
  after_results

/-- Entry (k, d) of the transposed targets is coordinate d of target k. -/
theorem V_main_v0_apply (k : Fin 8192) (d : Fin 3) : (V m c main_v0 : S8192x3.Idx → EReal) (ix2 k d) = tgt m c d k := by
  rw [V_main_v0, ValueIdx.transpose_ix2_apply]
  rfl

/-! ## The index maps, decided over the grid -/

/-- At point t the query window and both output windows are at block (0, t); the two whole-array windows at (0, 0). -/
theorem block_index : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-! ## The input blocks, read at coordinates -/

/-- Column r of the query block at point t is query point 256 t + r. -/
theorem iblk0_apply (t : Fin cfg0.N) (d : Fin 3) (r : Fin 256) (n : Fin 8192) (hn : n.val = t.val * 256 + r.val) :
    (iblk m c 0 t : Vec Ideal S3x256 .f32) (ix2 d r) = qry m c d n := by
  obtain ⟨e00, e01, -⟩ := block_index t
  unfold iblk
  rw [View.read_apply]
  show V m c main_arg0 (((cfg0.win 0).blk t).view.emb (ix2 d r)) = _
  have he : ((cfg0.win 0).blk t).view.emb (ix2 d r) = (ix2 d n : S3x8192.Idx) := by
    funext a; apply Fin.ext
    match a with
    | ⟨0, _⟩ => show win0_0.index t (0 : Fin 2) * 3 + 1 * d.val = d.val; omega
    | ⟨1, _⟩ => show win0_0.index t (1 : Fin 2) * 256 + 1 * r.val = n.val; omega
  rw [he, V_main_arg0]
  rfl

/-- The target block at every point is the whole target array. -/
theorem iblk1_apply (t : Fin cfg0.N) (d : Fin 3) (k : Fin 8192) :
    (iblk m c 1 t : Vec Ideal S3x8192 .f32) (ix2 d k) = tgt m c d k := by
  obtain ⟨-, -, e10, e11, -⟩ := block_index t
  unfold iblk
  rw [View.read_apply]
  show V m c main_arg1 (((cfg0.win 1).blk t).view.emb (ix2 d k)) = _
  have he : ((cfg0.win 1).blk t).view.emb (ix2 d k) = (ix2 d k : S3x8192.Idx) := by
    funext a; apply Fin.ext
    match a with
    | ⟨0, _⟩ => show win0_1.index t (0 : Fin 2) * 3 + 1 * d.val = d.val; omega
    | ⟨1, _⟩ => show win0_1.index t (1 : Fin 2) * 8192 + 1 * k.val = k.val; omega
  rw [he, V_main_arg1]
  rfl

/-- The transposed-target block at every point is the whole transposed array. -/
theorem iblk2_apply (t : Fin cfg0.N) (k : Fin 8192) (d : Fin 3) :
    (iblk m c 2 t : Vec Ideal S8192x3 .f32) (ix2 k d) = tgt m c d k := by
  obtain ⟨-, -, -, -, e20, e21, -⟩ := block_index t
  unfold iblk
  rw [View.read_apply]
  show V m c main_v0 (((cfg0.win 2).blk t).view.emb (ix2 k d)) = _
  have he : ((cfg0.win 2).blk t).view.emb (ix2 k d) = (ix2 k d : S8192x3.Idx) := by
    funext a; apply Fin.ext
    match a with
    | ⟨0, _⟩ => show win0_2.index t (0 : Fin 2) * 8192 + 1 * k.val = k.val; omega
    | ⟨1, _⟩ => show win0_2.index t (1 : Fin 2) * 3 + 1 * d.val = d.val; omega
  rw [he]
  exact V_main_v0_apply m c k d

/-! ## What the body stores at point t, entry by entry -/

/-- The third operand at every point is the second, transposed. -/
theorem iblk2_eq_iblk1 (t : Fin cfg0.N) (k : Fin 8192) (d : Fin 3) :
    (iblk m c 2 t : Vec Ideal S8192x3 .f32) (ix2 k d) = (iblk m c 1 t : Vec Ideal S3x8192 .f32) (ix2 d k) :=
  (iblk2_apply m c t k d).trans (iblk1_apply m c t d k).symm

/-- The query block's column r at point t, as a point: query 256 t + r. -/
theorem query_col (t : Fin cfg0.N) (r : Fin 256) (n : Fin 8192) (hn : n.val = t.val * 256 + r.val) :
    (fun d' => (iblk m c 0 t : Vec Ideal S3x256 .f32) (ix2 d' r)) = fun d' => qry m c d' n :=
  funext fun d' => iblk0_apply m c t d' r n hn

/-- The target block at point t, as a family of points: the targets. -/
theorem target_cols (t : Fin cfg0.N) :
    (fun d' (k : Fin 8192) => (iblk m c 1 t : Vec Ideal S3x8192 .f32) (ix2 d' k)) = tgt m c :=
  funext fun d' => funext fun k => iblk1_apply m c t d' k

/-- Entry (d, r) of the first stored block at point t: coordinate d of the soft nearest point of query 256 t + r. -/
theorem stored3 (t : Fin cfg0.N) (d : Fin 3) (r : Fin 256) (n : Fin 8192) (hn : n.val = t.val * 256 + r.val) :
    k0_pay2 (F := Ideal) (iblk m c 0 t) (iblk m c 1 t) (iblk m c 2 t) (ix2 d r)
      = near (fun d' => qry m c d' n) (tgt m c) d := by
  refine (pay2_apply (iblk m c 0 t) (iblk m c 1 t) (iblk m c 2 t) (iblk2_eq_iblk1 m c t) d r).trans ?_
  rw [query_col m c t r n hn, target_cols m c t]

/-- Entry (0, r) of the second stored block at point t: the offset of query 256 t + r. -/
theorem stored4 (t : Fin cfg0.N) (u : Fin 1) (r : Fin 256) (n : Fin 8192) (hn : n.val = t.val * 256 + r.val) :
    k0_pay1 (F := Ideal) (k0_pay3 (iblk m c 0 t) (iblk m c 1 t) (iblk m c 2 t)) (ix2 u r)
      = off (fun d' => qry m c d' n) (tgt m c) := by
  refine (pay1_apply (iblk m c 0 t) (iblk m c 1 t) (iblk m c 2 t) (iblk2_eq_iblk1 m c t) u r).trans ?_
  rw [query_col m c t r n hn, target_cols m c t]

/-- The same at an index j of the block and the index i of the array it lands on. -/
theorem stored3_at (t : Fin cfg0.N) (j : S3x256.Idx) (i : S3x8192.Idx) (h0 : (i 0).val = (j 0).val)
    (h1 : (i 1).val = t.val * 256 + (j 1).val) :
    k0_pay2 (F := Ideal) (iblk m c 0 t) (iblk m c 1 t) (iblk m c 2 t) j
      = near (fun d => qry m c d (i 1)) (tgt m c) (i 0) := by
  refine (congrArg (k0_pay2 (F := Ideal) (iblk m c 0 t) (iblk m c 1 t) (iblk m c 2 t)) (eq_ix2 j)).trans ?_
  refine (stored3 m c t (j 0) (j 1) (i 1) h1).trans ?_
  rw [show j 0 = i 0 from Fin.ext h0.symm]

theorem stored4_at (t : Fin cfg0.N) (j : S1x256.Idx) (i : S1x8192.Idx)
    (h1 : (i 1).val = t.val * 256 + (j 1).val) :
    k0_pay1 (F := Ideal) (k0_pay3 (iblk m c 0 t) (iblk m c 1 t) (iblk m c 2 t)) j
      = off (fun d => qry m c d (i 1)) (tgt m c) :=
  (congrArg (k0_pay1 (F := Ideal) (k0_pay3 (iblk m c 0 t) (iblk m c 1 t) (iblk m c 2 t))) (eq_ix2 j)).trans
    (stored4 m c t (j 0) (j 1) (i 1) h1)

/-! ## What point t writes back -/

theorem zero_offsets : (![0, 0] : Fin 2 → Nat) = fun _ => 0 := funext fun a => by fin_cases a <;> rfl

/-- Point t writes back block t of the array of soft nearest points. -/
theorem flushed3_eq (t : Fin cfg0.N) :
    (dats m 0 c).flushed 3 t = ((cfg0.win 3).blk t).view.read (Elt Ideal)
      (fun i : S3x8192.Idx => near (fun d => qry m c d (i 1)) (tgt m c) (i 0)) := by
  show (cfg0.win 3).cut (grid0.coords t) ((dats m 0 c).after 3 t) = _
  rw [after0_3]
  unfold out0_3
  rw [View.canon_unit_zero zero_offsets]
  simp only [View.ld_unit_zero (S := S3x256) zero_offsets, View.ld_unit_zero (S := S3x8192) zero_offsets,
    View.ld_unit_zero (S := S8192x3) zero_offsets]
  obtain ⟨-, -, -, -, -, -, e30, e31, -⟩ := block_index t
  funext j
  show k0_pay2 (F := Ideal) (iblk m c 0 t) (iblk m c 1 t) (iblk m c 2 t) j
    = near (fun d => qry m c d ((((cfg0.win 3).blk t).view.emb j) 1)) (tgt m c) ((((cfg0.win 3).blk t).view.emb j) 0)
  exact stored3_at m c t j (((cfg0.win 3).blk t).view.emb j)
    (by show win0_3.index t (0 : Fin 2) * 3 + 1 * (j 0).val = (j 0).val; omega)
    (by show win0_3.index t (1 : Fin 2) * 256 + 1 * (j 1).val = t.val * 256 + (j 1).val; omega)

/-- Point t writes back block t of the array of offsets. -/
theorem flushed4_eq (t : Fin cfg0.N) :
    (dats m 0 c).flushed 4 t = ((cfg0.win 4).blk t).view.read (Elt Ideal)
      (fun i : S1x8192.Idx => off (fun d => qry m c d (i 1)) (tgt m c)) := by
  show (cfg0.win 4).cut (grid0.coords t) ((dats m 0 c).after 4 t) = _
  rw [after0_4]
  unfold out0_4
  rw [View.canon_unit_zero zero_offsets]
  simp only [View.ld_unit_zero (S := S3x256) zero_offsets, View.ld_unit_zero (S := S3x8192) zero_offsets,
    View.ld_unit_zero (S := S8192x3) zero_offsets]
  obtain ⟨-, -, -, -, -, -, -, -, e40, e41⟩ := block_index t
  funext j
  show k0_pay1 (F := Ideal) (k0_pay3 (iblk m c 0 t) (iblk m c 1 t) (iblk m c 2 t)) j
    = off (fun d => qry m c d ((((cfg0.win 4).blk t).view.emb j) 1)) (tgt m c)
  exact stored4_at m c t j (((cfg0.win 4).blk t).view.emb j)
    (by show win0_4.index t (1 : Fin 2) * 256 + 1 * (j 1).val = t.val * 256 + (j 1).val; omega)

/-! ## The blocks tile the arrays -/

/-- An index of the array is in point t's block iff each coordinate is in the block's range on its axis. -/
theorem mem_blk3 (t : Fin cfg0.N) (i : S3x8192.Idx) :
    i ∈ ((cfg0.win 3).blk t).view.set ↔ ∀ a : Fin 2, win0_3.index t a * S3x256.size a ≤ (i a).val
      ∧ (i a).val < win0_3.index t a * S3x256.size a + S3x256.size a := by
  show i ∈ ((View.whole main_v1_0).slice (win0_3.rect t)).set ↔ _
  rw [View.set_slice_whole, Rect.mem_set_unit]
  exact Iff.rfl

theorem mem_blk4 (t : Fin cfg0.N) (i : S1x8192.Idx) :
    i ∈ ((cfg0.win 4).blk t).view.set ↔ ∀ a : Fin 2, win0_4.index t a * S1x256.size a ≤ (i a).val
      ∧ (i a).val < win0_4.index t a * S1x256.size a + S1x256.size a := by
  show i ∈ ((View.whole main_v1_1).slice (win0_4.rect t)).set ↔ _
  rw [View.set_slice_whole, Rect.mem_set_unit]
  exact Iff.rfl

/-- Column n is in the block of point n / 256. -/
theorem cover3 (i : S3x8192.Idx) :
    ∃ t : Fin cfg0.N, (cfg0.win 3).flush t = true ∧ i ∈ ((cfg0.win 3).blk t).view.set := by
  have hi0 : (i 0).val < 3 := (i 0).isLt
  have hi1 : (i 1).val < 8192 := (i 1).isLt
  have hN : cfg0.N = 32 := N_0
  obtain ⟨t, ht⟩ : ∃ t : Fin cfg0.N, t.val = (i 1).val / 256 := ⟨⟨(i 1).val / 256, by rw [hN]; omega⟩, rfl⟩
  obtain ⟨-, -, -, -, -, -, e30, e31, -⟩ := block_index t
  refine ⟨t, flush0_3 t, ?_⟩
  rw [mem_blk3]
  intro a
  match a with
  | ⟨0, _⟩ =>
    show win0_3.index t (0 : Fin 2) * 3 ≤ (i 0).val ∧ (i 0).val < win0_3.index t (0 : Fin 2) * 3 + 3
    omega
  | ⟨1, _⟩ =>
    show win0_3.index t (1 : Fin 2) * 256 ≤ (i 1).val ∧ (i 1).val < win0_3.index t (1 : Fin 2) * 256 + 256
    omega

theorem cover4 (i : S1x8192.Idx) :
    ∃ t : Fin cfg0.N, (cfg0.win 4).flush t = true ∧ i ∈ ((cfg0.win 4).blk t).view.set := by
  have hi0 : (i 0).val < 1 := (i 0).isLt
  have hi1 : (i 1).val < 8192 := (i 1).isLt
  have hN : cfg0.N = 32 := N_0
  obtain ⟨t, ht⟩ : ∃ t : Fin cfg0.N, t.val = (i 1).val / 256 := ⟨⟨(i 1).val / 256, by rw [hN]; omega⟩, rfl⟩
  obtain ⟨-, -, -, -, -, -, -, -, e40, e41⟩ := block_index t
  refine ⟨t, flush0_4 t, ?_⟩
  rw [mem_blk4]
  intro a
  match a with
  | ⟨0, _⟩ =>
    show win0_4.index t (0 : Fin 2) * 1 ≤ (i 0).val ∧ (i 0).val < win0_4.index t (0 : Fin 2) * 1 + 1
    omega
  | ⟨1, _⟩ =>
    show win0_4.index t (1 : Fin 2) * 256 ≤ (i 1).val ∧ (i 1).val < win0_4.index t (1 : Fin 2) * 256 + 256
    omega

/-! ## The output arrays after the run -/

/-- The first output: entry (d, n) is coordinate d of the soft nearest point of query n. -/
theorem final3 : (dats m 0 c).arrAt 3 cfg0.N
    = fun i : S3x8192.Idx => near (fun d => qry m c d (i 1)) (tgt m c) (i 0) :=
  (dats m 0 c).arrAt_eq_of_cover 3 _ (fun t _ => flushed3_eq m c t) cover3

/-- The second output: entry (0, n) is the offset of query n. -/
theorem final4 : (dats m 0 c).arrAt 4 cfg0.N
    = fun i : S1x8192.Idx => off (fun d => qry m c d (i 1)) (tgt m c) :=
  (dats m 0 c).arrAt_eq_of_cover 4 _ (fun t _ => flushed4_eq m c t) cover4

end Cert.KernelSide

end
-- ==== Proof.lean ====
/-
  The certificate of the soft nearest-neighbour kernel against its reference.

  Both programs take two clouds of 8192 points in three dimensions, the queries pc1 and the targets pc2. For each query
  they form the expanded squared distances to all targets, floor them at a small positive constant, and turn twice
  their reciprocals into weights by a softmax over the targets; the first result is, per query, the weighted mean of
  the targets, and the second is the mean over the queries of the length of (query − its weighted mean + a small shift).

  The kernel handles 256 queries per grid point against all targets. It adds the two squared norms before subtracting
  the doubled inner products, keeps the weights unnormalised, multiplies them with the transposed targets and divides
  the three sums by the total weight; the reference subtracts first, normalises every weight and then sums. Regrouping
  a sum is harmless on the extended reals, and −∞ is neutral for the maximum; moving the division inside the sum over
  the targets is the distributive law, which holds because under the precondition all inputs are real numbers: then
  the logits are real, the weights are positive reals and their total is a positive real (Spec).

  The frames of the two kernel programs are the generated ones, the reference's frame is its generated run; nothing
  was rewritten by the idealisation, so there is nothing to preserve; the value claim joins the kernel's two output
  arrays, read block by block off the frame run (KernelPay, KernelArr) and through the host operations after the
  region (KernelTail), with the reference's two results read operation by operation (RefRead).
-/
import proofs.«132407_j1563368096435_2_alg».proof.Defs
import proofs.«132407_j1563368096435_2_alg».proof.Proof.Gen.Kernel
import proofs.«132407_j1563368096435_2_alg».proof.Proof.Gen.Kernel.Frame
import proofs.«132407_j1563368096435_2_alg».proof.Proof.Gen.KernelIdeal
import proofs.«132407_j1563368096435_2_alg».proof.Proof.Gen.KernelIdeal.Frame
import proofs.«132407_j1563368096435_2_alg».proof.Proof.Gen.ReferenceIdeal
import proofs.«132407_j1563368096435_2_alg».proof.Proof.Gen.ReferenceIdeal.Run
import proofs.«132407_j1563368096435_2_alg».proof.Proof.Gen.ReferenceIdeal.Read
import proofs.«132407_j1563368096435_2_alg».proof.Proof.Gen.Pre_finite_inputs
import proofs.«132407_j1563368096435_2_alg».proof.Proof.FiniteInputs
import proofs.«132407_j1563368096435_2_alg».proof.Proof.Spec
import proofs.«132407_j1563368096435_2_alg».proof.Proof.RefRead
import proofs.«132407_j1563368096435_2_alg».proof.Proof.KernelTail
import proofs.«132407_j1563368096435_2_alg».proof.Proof.KernelArr

set_option maxRecDepth 16384

noncomputable section

namespace Cert.Proof

open Idealize.ShloMosaic Idealize.ShloMosaic.TcCoe Idealize.ShloMosaic.ValueIdx Idealize.SL.Sem Cert.SoftNN

/-- The three frames: the kernel programs' are generated whole; the reference's is its run with the results dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealisation rewrote no operation. -/
theorem preserves : Cert.preserves_Kernel_KernelIdeal := trivial

section
open Cert.KernelIdeal Cert.KernelIdeal.Gen Cert.KernelSide

/-- The scalar the kernel program returns: the mean offset of the query points. -/
theorem tail_value (m : (ℓ : Loc nD τ sig) → Buf (Elt Ideal) ℓ) (c : Dev nD) :
    (Pipeline.afterTail₀ cfgs (dats m) 0 (V0 m) [hostOps1] c main_v3 : S_.Idx → EReal)
      = fun _ => meanOff (qry m c) (tgt m c) := by
  rw [tail_read, final4]
  funext i
  exact mean_of_row (fun n => off (fun d => qry m c d n) (tgt m c)) i

end

/-- Both idealised programs end with the soft nearest points and their mean offset: the kernel's arrays by the frame
    run and the tail, the reference's by its run, equal because the inputs are real numbers. -/
theorem algebraic : Cert.algebraic_KernelIdeal_ReferenceIdeal := by
  intro m ρ m' ρ' hpre hagree
  have hfin := fun c => Cert.Finite.real_of_pre _ _ (hpre c)
  refine ⟨fun c => (fun i : Cert.KernelIdeal.S3x8192.Idx =>
      near (fun d => Cert.KernelSide.qry m c d (i 1)) (Cert.KernelSide.tgt m c) (i 0)),
    fun c => (fun _ : Cert.KernelIdeal.S_.Idx => meanOff (Cert.KernelSide.qry m c) (Cert.KernelSide.tgt m c)), ?_, ?_⟩
  · refine (θ_run Cert.KernelIdeal.defs _ _).mono (fun r h c => ⟨?_, ?_, ?_, ?_⟩) (Cert.KernelIdeal.Gen.run_main m ρ)
    · exact ((h c).1 3).trans (Cert.KernelSide.final3 m c)
    · exact ((h c).2 Cert.KernelIdeal.main_v3 Cert.KernelSide.v3_rest).trans (tail_value m c)
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).1 1).trans (((Cert.KernelIdeal.Gen.dats m 0 c).arrAt_in 1 rfl _).trans
        ((Cert.KernelIdeal.Gen.A_eq m c 1).trans (Cert.KernelIdeal.Gen.V_main_arg1 m c)))
  · refine (θ_run Cert.ReferenceIdeal.defs _ _).mono
      (fun r h c => ⟨(h c).1.trans ?_, (h c).2.1.trans ?_, (h c).2.2.1, (h c).2.2.2⟩)
      (Cert.ReferenceIdeal.Value.run (F := Ideal) m' ρ')
    · rw [Cert.ReferenceIdeal.Read.val_main_v29_eq, (hagree c).1, (hagree c).2]
      funext i
      obtain ⟨d, n, rfl⟩ : ∃ (d : Fin 3) (n : Fin 8192), i = ix2 d n := ⟨i 0, i 1, eq_ix2 i⟩
      rw [Cert.RefSide.near_read]
      exact nearR_eq (fun d' => (hfin c).1 _) (fun d' n' => (hfin c).2 _) d
    · rw [Cert.ReferenceIdeal.Read.val_main_v37_eq, (hagree c).1, (hagree c).2]
      funext i
      rw [Cert.RefSide.mean_read]
      exact meanOffR_eq (fun d n => (hfin c).1 _) (fun d n => (hfin c).2 _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
